-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_v57) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x128 .f32) (main_arg1 : IVec S2x800000 32) (main_arg2 : FVec F S800000 .f32) (main_arg3 : IVec S50000 32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S128x128 : Shape := ⟨2, ![128, 128]⟩
abbrev S128 : Shape := ⟨1, ![128]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S2000x128 : Shape := ⟨2, ![2000, 128]⟩
abbrev S850000x128 : Shape := ⟨2, ![850000, 128]⟩
abbrev S1x128 : Shape := ⟨2, ![1, 128]⟩
abbrev S500x128 : Shape := ⟨2, ![500, 128]⟩
abbrev S50000x1 : Shape := ⟨2, ![50000, 1]⟩
abbrev S500 : Shape := ⟨1, ![500]⟩
abbrev S500x1 : Shape := ⟨2, ![500, 1]⟩

abbrev nBuf : Space → Nat
  | .hbm => 81
  | .vmem => 13
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S50000, .i32⟩
  | .hbm, ⟨4, _⟩ => ⟨S128x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S50000, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S850000, .f32⟩
  | .hbm, ⟨48, _⟩ => ⟨S50000x128, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x1, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S500x128, .f32⟩
  | .hbm, ⟨68, _⟩ => ⟨S50000x1, .i32⟩
  | .hbm, ⟨69, _⟩ => ⟨S500x128, .f32⟩
  | .hbm, ⟨70, _⟩ => ⟨S_, .f32⟩
  | .hbm, ⟨71, _⟩ => ⟨S50000, .f32⟩
  | .hbm, ⟨72, _⟩ => ⟨S_, .f32⟩
  | .hbm, ⟨73, _⟩ => ⟨S500, .f32⟩
  | .hbm, ⟨74, _⟩ => ⟨S50000x1, .i32⟩
  | .hbm, ⟨75, _⟩ => ⟨S500, .f32⟩
  | .hbm, ⟨76, _⟩ => ⟨S_, .f32⟩
  | .hbm, ⟨77, _⟩ => ⟨S500, .f32⟩
  | .hbm, ⟨78, _⟩ => ⟨S500, .f32⟩
  | .hbm, ⟨79, _⟩ => ⟨S500x1, .f32⟩
  | .hbm, ⟨80, _⟩ => ⟨S500x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128, .f32⟩
  | .local _ .vmem, ⟨8, _⟩ => ⟨S2000x128, .f32⟩
  | .local _ .vmem, ⟨9, _⟩ => ⟨S2000x128, .f32⟩
  | .local _ .vmem, ⟨10, _⟩ => ⟨S500x128, .f32⟩
  | .local _ .vmem, ⟨11, _⟩ => ⟨S500x1, .f32⟩
  | .local _ .vmem, ⟨12, _⟩ => ⟨S500x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S500x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S500x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S500x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  shapeCasts_S2000x128_S2000x128 : S2000x128.ShapeCasts S2000x128
  bcast_S_S500x128 : S_.BroadcastsInDim S500x128 (![] : Fin 0 → Fin S500x128.rank)
  bcast_S50000_S50000x1_0 : S50000.BroadcastsInDim S50000x1 (![0] : Fin 1 → Fin S50000x1.rank)
  bcast_S_S500 : S_.BroadcastsInDim S500 (![] : Fin 0 → Fin S500.rank)
  bcast_S500_S500x1_0 : S500.BroadcastsInDim S500x1 (![0] : Fin 1 → Fin S500x1.rank)
  inb_S500x1_S500x1_0_0 : ∀ a, (![0, 0] : Fin 2 → Nat) a + S500x1.size a ≤ S500x1.size a
  h_S500x1 : 0 < S500x1.numel
  shapeCasts_S500x1_S500x1 : S500x1.ShapeCasts S500x1
  broadcasts_S500x1_S500x128 : S500x1.Broadcasts S500x128
  inb_S500x128_S500x128_0_0 : ∀ a, (![0, 0] : Fin 2 → Nat) a + S500x128.size a ≤ S500x128.size a
  h_S500x128 : 0 < S500x128.numel
  shapeCasts_S500x128_S500x128 : S500x128.ShapeCasts S500x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S500x128_S50000x1_S50000x128_1_0_0_1_wf : ScatterDims.WF S500x128 S50000x1 S50000x128 [1] [0] [0] 1
  scatter_S500_S50000x1_S50000_n_0_0_1_wf : ScatterDims.WF S500 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S500x128.size a ≤ S500x128.size a
  hwx2_0 : ∀ i : grid2.Coords, EltTy.bits .f32 = 32 ∨ (Rect.block (s := S500x128) S500x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S500x1.size a ≤ S500x1.size a
  hwx2_1 : ∀ i : grid2.Coords, EltTy.bits .f32 = 32 ∨ (Rect.block (s := S500x1) S500x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S500x128.size a ≤ S500x128.size a
  hwx2_2 : ∀ i : grid2.Coords, EltTy.bits .f32 = 32 ∨ (Rect.block (s := S500x128) S500x128.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S500x128_S50000x1_S50000x128_1_0_0_1 : ScatterDims S500x128 S50000x1 S50000x128 where
  updateWindowDims := [1]
  insertedWindowDims := [0]
  scatterDimsToOperandDims := [0]
  indexVectorDim := 1
  wf := scatter_S500x128_S50000x1_S50000x128_1_0_0_1_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S500x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v56) S500x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S500x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S128x128 : Shape := ⟨2, ![128, 128]⟩
abbrev S128 : Shape := ⟨1, ![128]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S500x128 : Shape := ⟨2, ![500, 128]⟩
abbrev S50000x1 : Shape := ⟨2, ![50000, 1]⟩
abbrev S500 : Shape := ⟨1, ![500]⟩
abbrev S500x1 : Shape := ⟨2, ![500, 1]⟩

abbrev nBuf : Space → Nat
  | .hbm => 87
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S50000, .i32⟩
  | .hbm, ⟨4, _⟩ => ⟨S128x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S50000, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S850000, .f32⟩
  | .hbm, ⟨48, _⟩ => ⟨S50000x128, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x1, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S500x128, .f32⟩
  | .hbm, ⟨73, _⟩ => ⟨S50000x1, .i32⟩
  | .hbm, ⟨74, _⟩ => ⟨S500x128, .f32⟩
  | .hbm, ⟨75, _⟩ => ⟨S_, .f32⟩
  | .hbm, ⟨76, _⟩ => ⟨S50000, .f32⟩
  | .hbm, ⟨77, _⟩ => ⟨S_, .f32⟩
  | .hbm, ⟨78, _⟩ => ⟨S500, .f32⟩
  | .hbm, ⟨79, _⟩ => ⟨S50000x1, .i32⟩
  | .hbm, ⟨80, _⟩ => ⟨S500, .f32⟩
  | .hbm, ⟨81, _⟩ => ⟨S_, .f32⟩
  | .hbm, ⟨82, _⟩ => ⟨S500, .f32⟩
  | .hbm, ⟨83, _⟩ => ⟨S500, .f32⟩
  | .hbm, ⟨84, _⟩ => ⟨S500x1, .f32⟩
  | .hbm, ⟨85, _⟩ => ⟨S500x128, .f32⟩
  | .hbm, ⟨86, _⟩ => ⟨S500x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call1_cst : Ref sig .tc := ⟨.hbm, 68, rfl⟩
abbrev main_call1_v0 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S500x128 : S_.BroadcastsInDim S500x128 (![] : Fin 0 → Fin S500x128.rank)
  bcast_S50000_S50000x1_0 : S50000.BroadcastsInDim S50000x1 (![0] : Fin 1 → Fin S50000x1.rank)
  bcast_S_S500 : S_.BroadcastsInDim S500 (![] : Fin 0 → Fin S500.rank)
  bcast_S500_S500x1_0 : S500.BroadcastsInDim S500x1 (![0] : Fin 1 → Fin S500x1.rank)
  bcast_S500x1_S500x128_0_1 : S500x1.BroadcastsInDim S500x128 (![0, 1] : Fin 2 → Fin S500x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S500x128_S50000x1_S50000x128_1_0_0_1_wf : ScatterDims.WF S500x128 S50000x1 S50000x128 [1] [0] [0] 1
  scatter_S500_S50000x1_S50000_n_0_0_1_wf : ScatterDims.WF S500 S50000x1 S50000 [] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S500x128_S50000x1_S50000x128_1_0_0_1 : ScatterDims S500x128 S50000x1 S50000x128 where
  updateWindowDims := [1]
  insertedWindowDims := [0]
  scatterDimsToOperandDims := [0]
  indexVectorDim := 1
  wf := scatter_S500x128_S50000x1_S50000x128_1_0_0_1_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf

class Facts : Prop extends Facts₀ where

variable [Facts]
-- ==== Proof.KernelRun.lean ====
/-
  The idealized kernel's run with its two results read.

  The program is three pipelined regions among stretches of host operations. Its run is a chain of segments, and at
  the end of the chain every buffer of the core that outlives a region holds the last boundary's contents. The
  argument arrays are among those buffers, and so are the two results: the node-level array, which the second region
  writes, and the graph-level array, which the third writes. So every weakly fair execution terminates, faults
  nowhere, leaves the arguments as launched, and leaves each result at the last boundary's contents of its buffer.
-/
import proofs.«153287_j38981123178600_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the node-level and the graph-level result
    end at the last boundary's contents of their buffers, and the six arguments as launched. -/
theorem run_last : θ_run defs (onTc (τ := τ) (main (F := F))) ⟨m, fun _ => 0, ρ⟩ (fun r => ∀ c : Dev nD,
      r.2.mem ((c.tc : Thread nD τ).loc main_v46) = W8 m ρ c (Proc.devRef .tc main_v46)
      ∧ r.2.mem ((c.tc : Thread nD τ).loc main_v57) = W8 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v46 (by decide)),
       h c _ (mem_uc main_v57 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Whole

end
-- ==== Proof.Stages.lean ====
/-
  The four stages of one graph-convolution layer with mean pooling, each as a function of whole arrays.

    aggregate h e w   every node's sum, over its incoming edges and its self-loop, of the source node's row of h
                      scaled by the edge's normalised weight (the scatter-add of the gathered, scaled rows)
    activate raw b    max (raw + b) 0, the bias b repeated down the rows
    pool o g          every graph's sum of its nodes' rows of o
    mean s n          s divided, row by row, by the column n of node counts

  The two node-level and graph-level results of the layer are
    nodes  = activate (aggregate (x · W) e w) b
    graphs = mean (pool nodes g) (counts g),
  and this is, read off its definition, what the reference computes (`ref_nodes`, `ref_graphs`). The edge
  normalisation, the gather and the scatter-adds stay closed inside these functions: both programs apply the very
  same ones, so nothing about them is ever needed beyond their being functions.
-/
import proofs.«153287_j38981123178600_1_alg».proof.Proof.Gen.ReferenceIdeal.Read

-- the shapes' long axes: the elaborator's structural look recurses once per coordinate
set_option maxRecDepth 65536

noncomputable section

namespace Cert.Stages

open Idealize.ShloMosaic Cert.ReferenceIdeal Cert.ReferenceIdeal.Gen Cert.ReferenceIdeal.Read

/-- Node features, [50000,128]. -/
abbrev Nodes := FVec Ideal S50000x128 .f32
/-- Graph features, [500,128]. -/
abbrev Graphs := FVec Ideal S500x128 .f32
/-- The edge list, [2,800000]. -/
abbrev Edges := (⟨S2x800000, .i32⟩ : BufTy).Contents (Elt Ideal)
/-- The edge weights, [800000]. -/
abbrev Weights := FVec Ideal S800000 .f32
/-- The graph of each node, [50000]. -/
abbrev Batch := (⟨S50000, .i32⟩ : BufTy).Contents (Elt Ideal)

/-- Every node's sum over its incoming edges (self-loop included) of the source's row of `h` times the edge's
    normalised weight. -/
def aggregate (h : Nodes) (e : Edges) (w : Weights) : Nodes :=
  Host.scatterAdd (F := Ideal) scatter_S50000x128_S850000x1_S850000x128_1_0_0_1 (val_main_v43 (F := Ideal)) (val_main_v44 (F := Ideal) e)
    (mulf (F := Ideal) (Host.gather gather_S50000x128_S850000x1_S850000x128_1_0_n_n_0_1_1128 h (val_main_v38 (F := Ideal) e)) (val_main_v41 (F := Ideal) e w))

/-- The bias added to every row, then the maximum with zero. -/
def activate (raw : Nodes) (b : FVec Ideal S128 .f32) : Nodes :=
  maximumf (F := Ideal) (addf (F := Ideal) raw (val_main_v47 (F := Ideal) b)) (val_main_call1_v0 (F := Ideal))

/-- Every graph's sum of its nodes' rows. -/
def pool (o : Nodes) (g : Batch) : Graphs :=
  Host.scatterAdd (F := Ideal) scatter_S500x128_S50000x1_S50000x128_1_0_0_1 (val_main_v50 (F := Ideal)) (val_main_v51 (F := Ideal) g) o

/-- The number of nodes of every graph, at least one, as a column. -/
def counts (g : Batch) : FVec Ideal S500x1 .f32 := val_main_v59 (F := Ideal) g

/-- Row by row, the quotient by the column's entry. -/
def mean (s : Graphs) (n : FVec Ideal S500x1 .f32) : Graphs :=
  Host.divf (F := Ideal) s (broadcastInDim S500x128 ![0, 1] bcast_S500x1_S500x128_0_1 n)

/-- The reference's node-level result is the activated aggregate of its matrix product. -/
theorem ref_nodes (x0 : Nodes) (x1 : Edges) (x2 : Weights) (x4 : FVec Ideal S128x128 .f32)
    (x5 : FVec Ideal S128 .f32) :
    val_main_v49 (F := Ideal) x0 x1 x2 x4 x5 = activate (aggregate (val_main_v32 (F := Ideal) x0 x4) x1 x2) x5 := by
  unfold activate aggregate val_main_v49 val_main_v48 val_main_v45 val_main_v42 val_main_v39
  rfl

/-- The reference's graph-level result is the mean of the pooled node-level result. -/
theorem ref_graphs (x0 : Nodes) (x1 : Edges) (x2 : Weights) (x3 : Batch) (x4 : FVec Ideal S128x128 .f32)
    (x5 : FVec Ideal S128 .f32) :
    val_main_v61 (F := Ideal) x0 x1 x2 x3 x4 x5 = mean (pool (val_main_v49 (F := Ideal) x0 x1 x2 x4 x5) x3) (counts x3) := by
  unfold mean pool counts val_main_v61 val_main_v52 val_main_v60
  rfl

end Cert.Stages

end
-- ==== Proof.HostFirst.lean ====
/-
  The first stretch of host operations, read as functions.

  Before the first region the program runs three stretches of host operations. None of them writes an argument, so
  the arguments are still as launched when the region is entered. The first stretch builds, from the edge list and the
  edge weights alone, the edges' sources and targets with one self-loop per node appended, the weights with the
  self-loops' ones appended, the mask of the nodes whose weighted in-degree is positive and the inverse square roots of
  the weighted in-degrees: each is the reference's own function of the edge list and the weights, met by running the
  stretch's operations — a host operation's result is its function of its operands' contents, a buffer it does not
  write keeps its contents — with the scatter-add left closed.
-/
import proofs.«153287_j38981123178600_1_alg».proof.Proof.Gen.KernelIdeal.Frame
import proofs.«153287_j38981123178600_1_alg».proof.Proof.Stages
import Idealize.ShloMosaic.Lib.StableHlo.Run

set_option maxRecDepth 65536
set_option maxHeartbeats 4000000

noncomputable section

namespace Cert.KernelIdeal.Whole

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Before the first region -/

/-- No host operation before the first region writes argument 0. -/
theorem W3_arg0 (c : Dev nD) : W3 m ρ c (Proc.devRef .tc main_arg0) = m ((c.tc : Thread nD τ).loc main_arg0) := by
  dsimp only [W3, W2, W1, hostOps0, hostOps0_1, hostOps0_2]
  after_results_simp <;> rfl

/-- No host operation before the first region writes argument 3. -/
theorem W3_arg3 (c : Dev nD) : W3 m ρ c (Proc.devRef .tc main_arg3) = m ((c.tc : Thread nD τ).loc main_arg3) := by
  dsimp only [W3, W2, W1, hostOps0, hostOps0_1, hostOps0_2]
  after_results_simp <;> rfl

/-- No host operation before the first region writes argument 4. -/
theorem W3_arg4 (c : Dev nD) : W3 m ρ c (Proc.devRef .tc main_arg4) = m ((c.tc : Thread nD τ).loc main_arg4) := by
  dsimp only [W3, W2, W1, hostOps0, hostOps0_1, hostOps0_2]
  after_results_simp <;> rfl

/-- No host operation before the first region writes argument 5. -/
theorem W3_arg5 (c : Dev nD) : W3 m ρ c (Proc.devRef .tc main_arg5) = m ((c.tc : Thread nD τ).loc main_arg5) := by
  dsimp only [W3, W2, W1, hostOps0, hostOps0_1, hostOps0_2]
  after_results_simp <;> rfl

/-- The edges' sources, the self-loops appended. -/
theorem W3_sources (c : Dev nD) :
    W3 m ρ c (Proc.devRef .tc main_v3) = Cert.ReferenceIdeal.Read.val_main_v3 (F := Ideal) (m ((c.tc : Thread nD τ).loc main_arg1)) := by
  dsimp only [W3, W2, W1, hostOps0, hostOps0_1, hostOps0_2]
  after_results_simp <;> rfl

/-- The edges' targets, the self-loops appended. -/
theorem W3_targets (c : Dev nD) :
    W3 m ρ c (Proc.devRef .tc main_v6) = Cert.ReferenceIdeal.Read.val_main_v6 (F := Ideal) (m ((c.tc : Thread nD τ).loc main_arg1)) := by
  dsimp only [W3, W2, W1, hostOps0, hostOps0_1, hostOps0_2]
  after_results_simp <;> rfl

/-! The normalised weights, stage by stage: after the first stretch the weights with the self-loops' ones appended, the
    positive-degree mask and the inverse square roots of the degrees; after the second the inverse square roots where
    the degree is positive and zero elsewhere; after the third the product of the two endpoints' factors and the weight. -/

/-- The edge weights, the self-loops' ones appended. -/
theorem W1_weights (c : Dev nD) :
    W1 m ρ c (Proc.devRef .tc main_v8) = Cert.ReferenceIdeal.Read.val_main_v8 (F := Ideal) (m ((c.tc : Thread nD τ).loc main_arg2)) := by
  dsimp only [W1, hostOps0]
  after_results_simp <;> rfl

theorem W1_sources (c : Dev nD) :
    W1 m ρ c (Proc.devRef .tc main_v3) = Cert.ReferenceIdeal.Read.val_main_v3 (F := Ideal) (m ((c.tc : Thread nD τ).loc main_arg1)) := by
  dsimp only [W1, hostOps0]
  after_results_simp <;> rfl

theorem W1_targets (c : Dev nD) :
    W1 m ρ c (Proc.devRef .tc main_v6) = Cert.ReferenceIdeal.Read.val_main_v6 (F := Ideal) (m ((c.tc : Thread nD τ).loc main_arg1)) := by
  dsimp only [W1, hostOps0]
  after_results_simp <;> rfl

/-- Where the weighted in-degree is positive. -/
theorem W1_positive (c : Dev nD) :
    W1 m ρ c (Proc.devRef .tc main_v13) = Cert.ReferenceIdeal.Read.val_main_v13 (F := Ideal) (m ((c.tc : Thread nD τ).loc main_arg1)) (m ((c.tc : Thread nD τ).loc main_arg2)) := by
  dsimp only [W1, hostOps0]
  after_results_simp <;> rfl

/-- The inverse square roots of the weighted in-degrees. -/
theorem W1_rsqrt (c : Dev nD) :
    W1 m ρ c (Proc.devRef .tc main_v14) = Cert.ReferenceIdeal.Read.val_main_v14 (F := Ideal) (m ((c.tc : Thread nD τ).loc main_arg1)) (m ((c.tc : Thread nD τ).loc main_arg2)) := by
  dsimp only [W1, hostOps0]
  after_results_simp <;> rfl

theorem W1_zero (c : Dev nD) :
    W1 m ρ c (Proc.devRef .tc main_cst_2) = Cert.ReferenceIdeal.Read.val_main_cst_2 (F := Ideal) := by
  dsimp only [W1, hostOps0]
  after_results_simp <;> rfl

end Cert.KernelIdeal.Whole

end
-- ==== Proof.HostNorm.lean ====
/-
  The normalised edge weights.

  The second stretch is the program's `where`: the per-node factor is the inverse square root of the weighted in-degree
  where that degree is positive and zero elsewhere. The third stretch gathers the factor at both endpoints of every edge
  (negative indices wrapped) and multiplies the two with the edge's weight. Each stretch is read against the contents the
  previous one left, which stay closed: the mask, the roots, the factor, the endpoints and the weights enter as whole
  arrays, so the comparison with the reference's functions is of one stretch's operations only.
-/
import proofs.«153287_j38981123178600_1_alg».proof.Proof.Gen.KernelIdeal.Frame
import proofs.«153287_j38981123178600_1_alg».proof.Proof.Stages
import Idealize.ShloMosaic.Lib.StableHlo.Run
import proofs.«153287_j38981123178600_1_alg».proof.Proof.HostFirst

set_option maxRecDepth 65536
set_option maxHeartbeats 4000000

noncomputable section

namespace Cert.KernelIdeal.Whole

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The `where` on whole arrays: the typed references of the called function carry the arrays unchanged, so the
    stretch computes the selection of the roots under the mask, zero elsewhere. -/
theorem where_arrays (mask : (⟨S50000, .i1⟩ : BufTy).Contents (Elt Ideal)) (roots : (⟨S50000, .f32⟩ : BufTy).Contents (Elt Ideal))
    (zero : (⟨S_, .f32⟩ : BufTy).Contents (Elt Ideal)) :
    (TRef.of (sig := sig) (T := ⟨S50000, .f32⟩) main_v15).toBuf
      (select ((TRef.of (sig := sig) (T := ⟨S50000, .i1⟩) main_v13).ofBuf mask) ((TRef.of (sig := sig) (T := ⟨S50000, .f32⟩) main_v14).ofBuf roots)
        ((TRef.of (sig := sig) (T := ⟨S50000, .f32⟩) main_call0_v1).ofBuf ((TRef.of (sig := sig) (T := ⟨S50000, .f32⟩) main_call0_v1).toBuf
          (broadcastInDim S50000 ![] bcast_S_S50000 ((TRef.of (sig := sig) (T := ⟨S_, .f32⟩) main_call0_v0).ofBuf ((TRef.of (sig := sig) (T := ⟨S_, .f32⟩) main_call0_v0).toBuf (id ((TRef.of (sig := sig) (T := ⟨S_, .f32⟩) main_cst_2).ofBuf zero))))))))
    = select mask roots (broadcastInDim S50000 ![] bcast_S_S50000 (id zero)) := rfl

/-- The reference's per-node factor, one step unfolded. -/
theorem factor_unfold (x1 : (⟨Cert.ReferenceIdeal.S2x800000, .i32⟩ : BufTy).Contents (Elt Ideal)) (x2 : (⟨Cert.ReferenceIdeal.S800000, .f32⟩ : BufTy).Contents (Elt Ideal)) :
    Cert.ReferenceIdeal.Read.val_main_v15 (F := Ideal) x1 x2
      = select (Cert.ReferenceIdeal.Read.val_main_v13 (F := Ideal) x1 x2) (Cert.ReferenceIdeal.Read.val_main_v14 (F := Ideal) x1 x2)
          (broadcastInDim Cert.ReferenceIdeal.S50000 ![] Cert.ReferenceIdeal.Gen.bcast_S_S50000 (id (Cert.ReferenceIdeal.Read.val_main_cst_2 (F := Ideal)))) := rfl

set_option maxHeartbeats 1000000 in
/-- The per-node factor: the inverse square root of the degree where it is positive, zero elsewhere. -/
theorem W2_factor (c : Dev nD) :
    W2 m ρ c (Proc.devRef .tc main_v15) = Cert.ReferenceIdeal.Read.val_main_v15 (F := Ideal) (m ((c.tc : Thread nD τ).loc main_arg1)) (m ((c.tc : Thread nD τ).loc main_arg2)) := by
  have h13 := W1_positive m ρ c
  have h14 := W1_rsqrt m ρ c
  have h0 := W1_zero m ρ c
  dsimp only [W2, hostOps0_1]
  generalize W1 m ρ c = X at *
  after_results_simp
  rw [h13, h14, h0]
  exact (where_arrays _ _ _).trans (factor_unfold _ _).symm

theorem W2_keeps (c : Dev nD) :
    W2 m ρ c (Proc.devRef .tc main_v3) = W1 m ρ c (Proc.devRef .tc main_v3)
    ∧ W2 m ρ c (Proc.devRef .tc main_v6) = W1 m ρ c (Proc.devRef .tc main_v6)
    ∧ W2 m ρ c (Proc.devRef .tc main_v8) = W1 m ρ c (Proc.devRef .tc main_v8) := by
  dsimp only [W2, hostOps0_1]
  generalize W1 m ρ c = X
  refine ⟨?_, ?_, ?_⟩ <;> after_results_simp

/-- The edges' normalised weights. -/
theorem W3_norm (c : Dev nD) :
    W3 m ρ c (Proc.devRef .tc main_v31) = Cert.ReferenceIdeal.Read.val_main_v31 (F := Ideal) (m ((c.tc : Thread nD τ).loc main_arg1)) (m ((c.tc : Thread nD τ).loc main_arg2)) := by
  obtain ⟨k3, k6, k8⟩ := W2_keeps m ρ c
  have h3 := k3.trans (W1_sources m ρ c)
  have h6 := k6.trans (W1_targets m ρ c)
  have h8 := k8.trans (W1_weights m ρ c)
  have h15 := W2_factor m ρ c
  clear k3 k6 k8
  dsimp only [W3, hostOps0_2]
  generalize W2 m ρ c = X at *
  after_results_simp
  rw [h3, h6, h8, h15]
  rfl

end Cert.KernelIdeal.Whole

end
-- ==== Proof.HostBetween.lean ====
/-
  The host operations between the regions, read as functions.

  * After the stretch that follows the first region, the aggregate buffer holds `aggregate` of whatever the first
    region left in its output, of the edge list and of the weights; the bias and the batch vector are untouched.
  * After the stretch that follows the second region, the pooled buffer holds `pool` of whatever the second region
    left in its output, and the count column holds `counts`, both of the batch vector; the second region's output is
    not written.
  The gather and the scatter-adds stay closed: both programs apply the same functions, so the reference's stage
  functions are met by unfolding alone.
-/
import proofs.«153287_j38981123178600_1_alg».proof.Proof.Gen.KernelIdeal.Frame
import proofs.«153287_j38981123178600_1_alg».proof.Proof.Stages
import Idealize.ShloMosaic.Lib.StableHlo.Run
import proofs.«153287_j38981123178600_1_alg».proof.Proof.HostFirst
import proofs.«153287_j38981123178600_1_alg».proof.Proof.HostNorm

set_option maxRecDepth 65536
set_option maxHeartbeats 4000000

noncomputable section

namespace Cert.KernelIdeal.Whole

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Between the first and the second region -/

/-- The aggregate buffer: `aggregate` of the first region's output. -/
theorem W5_aggregate (c : Dev nD) :
    W5 m ρ c (Proc.devRef .tc main_v45)
      = Cert.Stages.aggregate (W4 m ρ c (Proc.devRef .tc main_v32)) (m ((c.tc : Thread nD τ).loc main_arg1)) (m ((c.tc : Thread nD τ).loc main_arg2)) := by
  dsimp only [W5, hostOps1]
  after_results_simp
  rw [W4_of_ne m ρ c main_v3 (by decide), W4_of_ne m ρ c main_v6 (by decide), W4_of_ne m ρ c main_v31 (by decide),
    W3_sources, W3_targets, W3_norm]
  rfl

/-- The bias is still as launched when the second region is entered. -/
theorem W5_arg5 (c : Dev nD) : W5 m ρ c (Proc.devRef .tc main_arg5) = m ((c.tc : Thread nD τ).loc main_arg5) := by
  dsimp only [W5, hostOps1]
  after_results_simp
  rw [W4_of_ne m ρ c main_arg5 (by decide), W3_arg5]

/-- So is the batch vector. -/
theorem W5_arg3 (c : Dev nD) : W5 m ρ c (Proc.devRef .tc main_arg3) = m ((c.tc : Thread nD τ).loc main_arg3) := by
  dsimp only [W5, hostOps1]
  after_results_simp
  rw [W4_of_ne m ρ c main_arg3 (by decide), W3_arg3]

/-! ## Between the second and the third region -/

/-- The batch vector is still as launched after the second region. -/
theorem W6_arg3 (c : Dev nD) : W6 m ρ c (Proc.devRef .tc main_arg3) = m ((c.tc : Thread nD τ).loc main_arg3) := by
  rw [W6_of_ne m ρ c main_arg3 (by decide), W5_arg3]

/-- The pooled buffer: `pool` of the second region's output. -/
theorem W7_pool (c : Dev nD) :
    W7 m ρ c (Proc.devRef .tc main_v49)
      = Cert.Stages.pool (W6 m ρ c (Proc.devRef .tc main_v46)) (m ((c.tc : Thread nD τ).loc main_arg3)) := by
  dsimp only [W7, hostOps2]
  after_results_simp
  rw [W6_arg3]
  rfl

/-- The count column. -/
theorem W7_counts (c : Dev nD) :
    W7 m ρ c (Proc.devRef .tc main_v56) = Cert.Stages.counts (m ((c.tc : Thread nD τ).loc main_arg3)) := by
  dsimp only [W7, hostOps2]
  after_results_simp
  rw [W6_arg3]
  rfl

/-- The second region's output is not written by the stretch that follows it. -/
theorem W7_nodes (c : Dev nD) : W7 m ρ c (Proc.devRef .tc main_v46) = W6 m ρ c (Proc.devRef .tc main_v46) := by
  dsimp only [W7, hostOps2]
  after_results_simp

end Cert.KernelIdeal.Whole

end
-- ==== Proof.LibRowBlockDot.lean ====
/-
  A block of rows of a matrix product, at the extended reals.

  Row i of X·W depends on row i of X alone. So the product of a block of rows of X (any choice of rows, given by a map
  `row` from the block's row numbers to the matrix's) with W is the same block of rows of X·W: entry (a, b) of the
  one and entry (row a, b) of the other are the same sum over the contracted coordinate of the same products. Stated
  for a kernel's product accumulated into the zero block against the host's product of the whole matrices, generic in
  the four extents, the operand formats and the precision keys. Nothing of real arithmetic is used beyond 0 + x = x,
  so it holds at the infinities too.
-/
import Idealize.ShloMosaic.Lib.StackMember
import Idealize.ShloMosaic.Lib.KernelVsHost

noncomputable section

namespace Cert.LibRowBlockDot

open Idealize.ShloMosaic Idealize.ShloMosaic.ValueIdx

/-- Entry (a, b) of a kernel's plain product `A·B` into the zero accumulator, where `A` is the rows `row a` of a
    matrix `X` and `B` is `W` entry by entry, is entry (`row a`, b) of the host's plain product `X·W`. -/
theorem matmul_rowBlock_apply {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b)) (a : Fin m) (b : Fin N) :
    matmul (DotDims.plain m K N) prec A B (constant (F := Ideal) ⟨2, ![m, N]⟩ .f32 0x00000000#32) (ix2 a b)
      = Host.dotGeneral (DotDims.plain M K N) prec' X W (ix2 (row a) b) := by
  rw [matmul_zero_eq_dotGeneral, StackMember.dotGeneral_plain_apply, StackMember.dotGeneral_plain_apply]
  exact Finset.sum_congr rfl fun c _ => by rw [hA, hB]

/-- The same with the two entries given by their coordinates: `j` in the block and `i` in the whole product, `i`'s
    row being the row the block's row `j 0` stands for and the columns equal. -/
theorem matmul_rowBlock_apply_idx {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b))
    (j : (⟨2, ![m, N]⟩ : Shape).Idx) (i : (⟨2, ![M, N]⟩ : Shape).Idx)
    (h0 : (i 0).val = (row (j 0)).val) (h1 : (i 1).val = (j 1).val) :
    matmul (DotDims.plain m K N) prec A B (constant (F := Ideal) ⟨2, ![m, N]⟩ .f32 0x00000000#32) j
      = Host.dotGeneral (DotDims.plain M K N) prec' X W i := by
  have hj : j = ix2 (j 0) (j 1) := eq_ix2 j
  have hi : i = ix2 (row (j 0)) (j 1) := by
    rw [eq_ix2 i]
    exact congrArg₂ ix2 (Fin.ext h0) (Fin.ext h1)
  rw [hj, hi]
  exact matmul_rowBlock_apply prec prec' X W A B row hA hB (j 0) (j 1)

end Cert.LibRowBlockDot

end
-- ==== Proof.ProductWhole.lean ====
/-
  The first region's result is the host's one product of the whole matrices.

  The region runs over 25 grid points. Point t takes rows 2000·t … 2000·t + 1999 of the node features x (a
  [50000,128] array) and the whole of the weights W ([128,128]), multiplies the two into a zero accumulator, and
  writes the [2000,128] product over rows 2000·t … 2000·t + 1999 of the result array. Narrowing the operands to
  bf16 changes nothing at the extended reals. Row i of x·W is a sum over the contracted coordinate of products of
  entries of row i of x with entries of W, so it depends on row i of x alone: the product of a block of rows of x
  with W is the same block of rows of x·W. Hence what point t writes is block t of the one whole-array value x·W.
  The 25 blocks of 2000 rows tile the 50000 rows (row r lies in block r / 2000), every point writes its block
  back, and so the result array ends holding x·W.

  A block's coordinate in the array is, on each axis, the block's index times the block's extent plus the coordinate
  inside the block. The block indices of the three windows are decided once over the 25 points: the x window and the
  result window are at (t, 0), the W window at (0, 0).
-/
import proofs.«153287_j38981123178600_1_alg».proof.Proof.Gen.KernelIdeal.Frame
import proofs.«153287_j38981123178600_1_alg».proof.Proof.Stages
import proofs.«153287_j38981123178600_1_alg».proof.Proof.LibRowBlockDot
import Idealize.ShloMosaic.Lib.Pipeline.Value
import Idealize.ShloMosaic.Lib.ValueIdx
set_option maxRecDepth 65536
noncomputable section
namespace Cert.KernelIdeal.Whole
open Cert.KernelIdeal Cert.KernelIdeal.Gen
open Idealize.ShloMosaic Idealize.ShloMosaic.TcCoe Idealize.SL.Sem
variable (V : (c : Dev nD) → (b : Ref sig .tc) → Buf (Elt Ideal) ((c : Thread nD τ).loc b))

/-- The offsets (0, 0) are zero on both axes. -/
theorem product_zero_offsets : (![0, 0] : Fin 2 → Nat) = fun _ => 0 := funext fun a => by fin_cases a <;> rfl

/-- The block indices at point t, decided over the 25 points: the x window and the result window sit at block
    (t, 0), the W window at block (0, 0); and t < 25. -/
theorem product_block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ t.val < 25 :=
  (by decide +kernel : ∀ t : Fin grid0.N, _)

/-- Every block number below 25 is some grid point's. -/
theorem product_point_of_block : ∀ q : Fin 25, ∃ t : Fin cfg0.N, t.val = q.val :=
  (by decide +kernel : ∀ q : Fin 25, ∃ t : Fin grid0.N, t.val = q.val)

/-- The kernel's product contracts the left operand's columns with the right operand's rows: the plain
    [2000,128] by [128,128] product. -/
theorem product_kernel_dims : dot_S2000x128_S128x128_S2000x128_1_0_0_1_n_n = DotDims.plain 2000 128 128 := rfl

/-- So does the host's: the plain [50000,128] by [128,128] product. -/
theorem product_host_dims :
    Cert.ReferenceIdeal.dot_S50000x128_S128x128_S50000x128_1_0_0_1_n_n = DotDims.plain 50000 128 128 := rfl

/-- ONE ENTRY OF A POINT'S PRODUCT. If A is the rows `row a` of X and B is W, entry j of the kernel's product of A
    and B into the zero accumulator is entry i of the host's product X·W, where i's row is the row that j's row
    stands for and the columns agree: both are the same sum over the contracted coordinate, and narrowing to bf16
    is the identity at the extended reals. -/
theorem product_block_apply (X : FVec Ideal S50000x128 .f32) (W : FVec Ideal S128x128 .f32)
    (A : FVec Ideal S2000x128 .f32) (B : FVec Ideal S128x128 .f32) (row : Fin 2000 → Fin 50000)
    (hA : ∀ a c, A (ValueIdx.ix2 a c) = X (ValueIdx.ix2 (row a) c))
    (hB : ∀ c b, B (ValueIdx.ix2 c b) = W (ValueIdx.ix2 c b))
    (j : S2000x128.Idx) (i : S50000x128.Idx) (h0 : (i 0).val = (row (j 0)).val) (h1 : (i 1).val = (j 1).val) :
    k0_pay1 (F := Ideal) A B j = Cert.ReferenceIdeal.Read.val_main_v32 (F := Ideal) X W i := by
  unfold k0_pay1 Cert.ReferenceIdeal.Read.val_main_v32
  rw [product_kernel_dims, product_host_dims]
  exact Cert.LibRowBlockDot.matmul_rowBlock_apply_idx none none X W A B row hA hB j i h0 h1

/-- The x window's block at point t is rows 2000·t … 2000·t + 1999 of x: its entry at x is x's entry at the index
    k whose row is 2000·t plus x's row and whose column is x's. -/
theorem product_x_rows (c : Dev nD) (t : Fin cfg0.N) (x : S2000x128.Idx) (k : S50000x128.Idx)
    (hk0 : (k 0).val = 2000 * t.val + (x 0).val) (hk1 : (k 1).val = (x 1).val) :
    (iblk0 (F := Ideal) V c 0 t : Vec Ideal S2000x128 .f32) x
      = (V c main_arg0 : S50000x128.Idx → Elt Ideal .f32) k := by
  obtain ⟨e0, e1, -⟩ := product_block_indices t
  unfold iblk0
  rw [View.read_apply]
  show V c main_arg0 _ = V c main_arg0 _
  congr 1
  funext a
  apply Fin.ext
  match a with
  | ⟨0, _⟩ => show win0_0.index t (0 : Fin 2) * 2000 + 1 * (x 0).val = (k 0).val; rw [e0, hk0]; omega
  | ⟨1, _⟩ => show win0_0.index t (1 : Fin 2) * 128 + 1 * (x 1).val = (k 1).val; rw [e1, hk1]; omega

/-- The W window's block at every point is the whole of W. -/
theorem product_w_whole (c : Dev nD) (t : Fin cfg0.N) (x : S128x128.Idx) :
    (iblk0 (F := Ideal) V c 1 t : Vec Ideal S128x128 .f32) x
      = (V c main_arg4 : S128x128.Idx → Elt Ideal .f32) x := by
  obtain ⟨-, -, e2, e3, -⟩ := product_block_indices t
  unfold iblk0
  rw [View.read_apply]
  show V c main_arg4 _ = V c main_arg4 _
  congr 1
  funext a
  apply Fin.ext
  match a with
  | ⟨0, _⟩ => show win0_1.index t (0 : Fin 2) * 128 + 1 * (x 0).val = (x 0).val; rw [e2]; omega
  | ⟨1, _⟩ => show win0_1.index t (1 : Fin 2) * 128 + 1 * (x 1).val = (x 1).val; rw [e3]; omega

/-- WHAT POINT t WRITES BACK is block t of x·W: the body's one store leaves the product of the point's two
    blocks in the buffer, the x block is rows 2000·t … of x and the W block is W, and entry j of block t of the
    result array sits at row 2000·t + (j's row), column j's. -/
theorem product_flushed (c : Dev nD) (t : Fin cfg0.N) :
    (dat0 (F := Ideal) V c).flushed 2 t
      = ((cfg0.win 2).blk t).view.read (Elt Ideal)
          (Cert.ReferenceIdeal.Read.val_main_v32 (F := Ideal) (V c main_arg0) (V c main_arg4)) := by
  show (cfg0.win 2).cut (grid0.coords t) ((dat0 (F := Ideal) V c).after 2 t) = _
  rw [after0_2]
  unfold out0_2
  rw [View.canon_unit_zero product_zero_offsets]
  simp only [View.ld_unit_zero (S := S2000x128) product_zero_offsets,
    View.ld_unit_zero (S := S128x128) product_zero_offsets]
  obtain ⟨-, -, -, -, e4, e5, ht⟩ := product_block_indices t
  funext j
  show k0_pay1 (F := Ideal) (iblk0 V c 0 t) (iblk0 V c 1 t) j
    = Cert.ReferenceIdeal.Read.val_main_v32 (F := Ideal) (V c main_arg0) (V c main_arg4)
        (((cfg0.win 2).blk t).view.emb j)
  have hj0 : (j 0).val < 2000 := (j 0).isLt
  refine product_block_apply (V c main_arg0) (V c main_arg4) _ _
    (fun a => ⟨2000 * t.val + a.val, by have := a.isLt; omega⟩) (fun a b => ?_) (fun a b => ?_) j _ ?_ ?_
  · exact product_x_rows V c t (ValueIdx.ix2 a b) _ rfl rfl
  · exact product_w_whole V c t (ValueIdx.ix2 a b)
  · show win0_2.index t (0 : Fin 2) * 2000 + 1 * (j 0).val = 2000 * t.val + (j 0).val
    rw [e4]; omega
  · show win0_2.index t (1 : Fin 2) * 128 + 1 * (j 1).val = (j 1).val
    rw [e5]; omega

/-- An index of the result array is in point t's block iff, on each axis, it lies in the block's range. -/
theorem product_mem_block (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v32).slice (win0_2.rect t)).set ↔ _
  rw [View.set_slice_whole, Rect.mem_set_unit]
  exact Iff.rfl

/-- The blocks tile the array: row r lies in the block of point r / 2000, and every point writes back. -/
theorem product_cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := product_point_of_block ⟨(i 0).val / 2000, by omega⟩
  have ht' : t.val = (i 0).val / 2000 := ht
  obtain ⟨-, -, -, -, e4, e5, -⟩ := product_block_indices t
  refine ⟨t, flush0_2 t, ?_⟩
  rw [product_mem_block]
  intro a
  match a with
  | ⟨0, _⟩ =>
    show win0_2.index t (0 : Fin 2) * 2000 ≤ (i 0).val ∧ (i 0).val < win0_2.index t (0 : Fin 2) * 2000 + 2000
    rw [e4]; omega
  | ⟨1, _⟩ =>
    show win0_2.index t (1 : Fin 2) * 128 ≤ (i 1).val ∧ (i 1).val < win0_2.index t (1 : Fin 2) * 128 + 128
    rw [e5]; omega

/-- After the first region the result array holds x·W, the host's one product of the whole matrices: every point
    writes back its block of that one value, and the blocks cover the array. -/
theorem product_whole (c : Dev nD) :
    (dat0 (F := Ideal) V c).arrAt 2 cfg0.N
      = Cert.ReferenceIdeal.Read.val_main_v32 (F := Ideal) (V c main_arg0) (V c main_arg4) := by
  exact (dat0 (F := Ideal) V c).arrAt_eq_of_cover 2 _ (fun t _ => product_flushed V c t) product_cover

end Cert.KernelIdeal.Whole
end
-- ==== Proof.LibBiasRows.lean ====
/-
  The bias stages of a graph convolution layer, as functions of whole arrays on the extended reals.

    biasRelu X B = max (X + B) 0     (entry (r,q): max (X(r,q) + B(0,q)) 0)
    biasOnly X B = X + B             (entry (r,q): X(r,q) + B(0,q))

  with the bias held as one row B of shape [1,N]. Each treats the rows of X independently, so a tiled program that
  runs it on a block of rows gets that block of rows of the result (`biasRelu_rows`, `biasOnly_rows`). The host
  spells the same functions with broadcasts (`hostBiasRelu`, `hostBiasOnly`), and makes the row from a bias vector
  either by a reshape or by a broadcast along the columns, the same row (`castRow_eq`). Nothing of real arithmetic
  is used, so every statement holds at the infinities too.
-/
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.LibBiasRows

open Idealize.ShloMosaic Idealize.ShloMosaic.ValueIdx

variable {M m N : Nat}

/-- The float zero the rectifier compares with. -/
abbrev zero32 : Ideal .f32 := Ideal.ofBits .f32 0x00000000#32

/-- A bias row added to every row, then the maximum with zero. -/
def biasRelu (X : FVec Ideal ⟨2, ![M, N]⟩ .f32) (B : FVec Ideal ⟨2, ![1, N]⟩ .f32) : FVec Ideal ⟨2, ![M, N]⟩ .f32 :=
  fun i => max (X i + B (ix2 (0 : Fin 1) ⟨(i 1).val, (i 1).isLt⟩)) zero32

/-- A bias row added to every row. -/
def biasOnly (X : FVec Ideal ⟨2, ![M, N]⟩ .f32) (B : FVec Ideal ⟨2, ![1, N]⟩ .f32) : FVec Ideal ⟨2, ![M, N]⟩ .f32 :=
  fun i => X i + B (ix2 (0 : Fin 1) ⟨(i 1).val, (i 1).isLt⟩)

theorem biasRelu_ix2 (X : FVec Ideal ⟨2, ![M, N]⟩ .f32) (B : FVec Ideal ⟨2, ![1, N]⟩ .f32) (r : Fin M) (q : Fin N) :
    biasRelu X B (ix2 r q) = max (X (ix2 r q) + B (ix2 (0 : Fin 1) q)) zero32 := rfl

theorem biasOnly_ix2 (X : FVec Ideal ⟨2, ![M, N]⟩ .f32) (B : FVec Ideal ⟨2, ![1, N]⟩ .f32) (r : Fin M) (q : Fin N) :
    biasOnly X B (ix2 r q) = X (ix2 r q) + B (ix2 (0 : Fin 1) q) := rfl

/-! ## A block of rows -/

/-- Bias and rectifier on a block of rows, through the identity casts and the row broadcast a tiled program prints,
    is that block of rows of `biasRelu`. -/
theorem biasRelu_rows (row : Fin m → Fin M) (X : FVec Ideal ⟨2, ![M, N]⟩ .f32) (Bw : FVec Ideal ⟨2, ![1, N]⟩ .f32)
    (A : FVec Ideal ⟨2, ![m, N]⟩ .f32) (B : FVec Ideal ⟨2, ![1, N]⟩ .f32)
    (hA : ∀ r q, A (ix2 r q) = X (ix2 (row r) q)) (hB : ∀ q, B (ix2 (0 : Fin 1) q) = Bw (ix2 (0 : Fin 1) q))
    (hs : (⟨2, ![m, N]⟩ : Shape).ShapeCasts ⟨2, ![m, N]⟩) (hs' : (⟨2, ![1, N]⟩ : Shape).ShapeCasts ⟨2, ![1, N]⟩)
    (hbc : (⟨2, ![1, N]⟩ : Shape).Broadcasts ⟨2, ![m, N]⟩)
    (j : (⟨2, ![m, N]⟩ : Shape).Idx) (i : (⟨2, ![M, N]⟩ : Shape).Idx)
    (h0 : (i 0).val = (row (j 0)).val) (h1 : (i 1).val = (j 1).val) :
    maximumf (addf (shapeCast ⟨2, ![m, N]⟩ A hs) (broadcastTo ⟨2, ![m, N]⟩ (shapeCast ⟨2, ![1, N]⟩ B hs') hbc))
        (broadcast ⟨2, ![m, N]⟩ (Scalar.ofBits (F := Ideal) .f32 0x00000000#32)) j
      = biasRelu X Bw i := by
  obtain ⟨p, q, rfl⟩ : ∃ (p : Fin m) (q : Fin N), j = ix2 p q := ⟨j 0, j 1, eq_ix2 j⟩
  obtain rfl : i = ix2 (row p) q := by
    rw [eq_ix2 i]; exact congrArg₂ ix2 (Fin.ext h0) (Fin.ext h1)
  rw [biasRelu_ix2, maximumf_apply, addf_apply, broadcast_apply, shapeCast_self, broadcastTo_1b_ab_apply, shapeCast_self, hA, hB]
  rfl

/-- A bias on a block of rows, through the same casts and broadcast, is that block of rows of `biasOnly`. -/
theorem biasOnly_rows (row : Fin m → Fin M) (X : FVec Ideal ⟨2, ![M, N]⟩ .f32) (Bw : FVec Ideal ⟨2, ![1, N]⟩ .f32)
    (A : FVec Ideal ⟨2, ![m, N]⟩ .f32) (B : FVec Ideal ⟨2, ![1, N]⟩ .f32)
    (hA : ∀ r q, A (ix2 r q) = X (ix2 (row r) q)) (hB : ∀ q, B (ix2 (0 : Fin 1) q) = Bw (ix2 (0 : Fin 1) q))
    (hs : (⟨2, ![m, N]⟩ : Shape).ShapeCasts ⟨2, ![m, N]⟩) (hs' : (⟨2, ![1, N]⟩ : Shape).ShapeCasts ⟨2, ![1, N]⟩)
    (hbc : (⟨2, ![1, N]⟩ : Shape).Broadcasts ⟨2, ![m, N]⟩)
    (j : (⟨2, ![m, N]⟩ : Shape).Idx) (i : (⟨2, ![M, N]⟩ : Shape).Idx)
    (h0 : (i 0).val = (row (j 0)).val) (h1 : (i 1).val = (j 1).val) :
    addf (shapeCast ⟨2, ![m, N]⟩ A hs) (broadcastTo ⟨2, ![m, N]⟩ (shapeCast ⟨2, ![1, N]⟩ B hs') hbc) j
      = biasOnly X Bw i := by
  obtain ⟨p, q, rfl⟩ : ∃ (p : Fin m) (q : Fin N), j = ix2 p q := ⟨j 0, j 1, eq_ix2 j⟩
  obtain rfl : i = ix2 (row p) q := by
    rw [eq_ix2 i]; exact congrArg₂ ix2 (Fin.ext h0) (Fin.ext h1)
  rw [biasOnly_ix2, addf_apply, shapeCast_self, broadcastTo_1b_ab_apply, shapeCast_self, hA, hB]

/-! ## The host's spelling -/

/-- A row [1,N] broadcast over the rows of [M,N] reads, at (r,q), the row at q. -/
theorem rowBcast_apply (B : FVec Ideal ⟨2, ![1, N]⟩ .f32)
    (h : (⟨2, ![1, N]⟩ : Shape).BroadcastsInDim ⟨2, ![M, N]⟩ (![0, 1] : Fin 2 → Fin 2)) (r : Fin M) (q : Fin N) :
    broadcastInDim ⟨2, ![M, N]⟩ ![0, 1] h B (ix2 r q) = B (ix2 (0 : Fin 1) q) := by
  refine broadcastInDim_apply (![0, 1] : Fin 2 → Fin 2) h B (ix2 r q) (ix2 (0 : Fin 1) q) fun ax => ?_
  match ax with
  | ⟨0, _⟩ => rfl
  | ⟨1, _⟩ =>
    show q.val = if N = 1 then 0 else q.val
    split
    · have := q.isLt; omega
    · rfl

/-- The float zero splat to any shape reads zero everywhere. -/
theorem zeroSplat_apply {s : Shape} (h : (⟨0, ![]⟩ : Shape).BroadcastsInDim s (![] : Fin 0 → Fin s.rank)) (i : s.Idx) :
    broadcastInDim s ![] h (constant (F := Ideal) ⟨0, ![]⟩ .f32 0x00000000#32) i = zero32 := by
  rw [broadcastInDim_apply (![] : Fin 0 → Fin s.rank) h _ i ix0 (fun a => a.elim0)]
  rfl

/-- The host's `max (X + broadcast B) (splat 0)` is `biasRelu`. -/
theorem hostBiasRelu (X : FVec Ideal ⟨2, ![M, N]⟩ .f32) (B : FVec Ideal ⟨2, ![1, N]⟩ .f32)
    (h : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) :
    maximumf (addf X (broadcastInDim ⟨2, ![M, N]⟩ ![0, 1] h B))
        (broadcastInDim ⟨2, ![M, N]⟩ ![] h0 (constant (F := Ideal) ⟨0, ![]⟩ .f32 0x00000000#32))
      = biasRelu X B := by
  funext i
  obtain ⟨r, q, rfl⟩ : ∃ (r : Fin M) (q : Fin N), i = ix2 r q := ⟨i 0, i 1, eq_ix2 i⟩
  rw [biasRelu_ix2, maximumf_apply, addf_apply, rowBcast_apply, zeroSplat_apply]

/-- The host's `X + broadcast B` is `biasOnly`. -/
theorem hostBiasOnly (X : FVec Ideal ⟨2, ![M, N]⟩ .f32) (B : FVec Ideal ⟨2, ![1, N]⟩ .f32)
    (h : (⟨2, ![1, N]⟩ : Shape).BroadcastsInDim ⟨2, ![M, N]⟩ (![0, 1] : Fin 2 → Fin 2)) :
    addf X (broadcastInDim ⟨2, ![M, N]⟩ ![0, 1] h B) = biasOnly X B := by
  funext i
  obtain ⟨r, q, rfl⟩ : ∃ (r : Fin M) (q : Fin N), i = ix2 r q := ⟨i 0, i 1, eq_ix2 i⟩
  rw [biasOnly_ix2, addf_apply, rowBcast_apply]

/-- A vector reshaped to one row and the same vector broadcast along the columns of a one-row matrix are the same
    row. -/
theorem castRow_eq (b : FVec Ideal ⟨1, ![N]⟩ .f32) (hc : (⟨1, ![N]⟩ : Shape).ShapeCasts ⟨2, ![1, N]⟩)
    (hb : (⟨1, ![N]⟩ : Shape).BroadcastsInDim ⟨2, ![1, N]⟩ (![1] : Fin 1 → Fin 2)) :
    shapeCast ⟨2, ![1, N]⟩ b hc = broadcastInDim ⟨2, ![1, N]⟩ ![1] hb b := by
  funext j
  obtain ⟨u, q, rfl⟩ : ∃ (u : Fin 1) (q : Fin N), j = ix2 u q := ⟨j 0, j 1, eq_ix2 j⟩
  rw [shapeCast_a_1a_apply]
  refine (broadcastInDim_apply (![1] : Fin 1 → Fin 2) hb b (ix2 u q) (ix1 q) fun ax => ?_).symm
  match ax with
  | ⟨0, _⟩ =>
    show q.val = if N = 1 then 0 else q.val
    split
    · have := q.isLt; omega
    · rfl

end Cert.LibBiasRows

end
-- ==== Proof.LibHostReads.lean ====
/-
  Host-side array operations read at an index, on the extended reals.

  The reads that plain array code needs again and again: a plain matrix product [m,k]·[k,n] at (a, b) is the finite sum
  Σ_c L(a,c)·R(c,b), whatever name the product's dimension record was printed under, as long as it is the plain one; a
  scalar broadcast to any shape reads the scalar; a bias vector [n] broadcast to one row [1,n] and then down m rows reads,
  at (r, c), the bias at c; a vector [m] made a column [m,1] reads, at (r, ·), the vector at r; and a column [m,1]
  repeated along n columns reads, at (r, d), the column at r. Generic in the extents (an extent that must not be the unit
  extent says so) and, for the layout reads, in the element type; the indices are written by coordinates (ix1, ix2), so
  each lemma applies to a printed operation by unification.
-/
import Idealize.ShloMosaic.Lib.StackMember
import Idealize.ShloMosaic.Lib.Pipeline.Value
import Idealize.ShloMosaic.Lib.ValueIdx

noncomputable section

open scoped BigOperators

namespace Cert.LibHostReads

open Idealize.ShloMosaic Idealize.ShloMosaic.ValueIdx

variable {α : Type}

/-- A plain m×k by k×n product read at (a, b): Σ_c L(a,c)·R(c,b). -/
theorem dot_apply {m k n : Nat} (D : DotDims ⟨2, ![m, k]⟩ ⟨2, ![k, n]⟩ ⟨2, ![m, n]⟩) (hD : D = DotDims.plain m k n)
    (L : FVec Ideal ⟨2, ![m, k]⟩ .f32) (R : FVec Ideal ⟨2, ![k, n]⟩ .f32) (a : Fin m) (b : Fin n) :
    Host.dotGeneral D none L R (ix2 a b) = ∑ c : Fin k, L (ix2 a c) * R (ix2 c b) := by
  subst hD
  exact StackMember.dotGeneral_plain_apply none L R a b

/-- A scalar broadcast to any shape reads the scalar everywhere. -/
theorem splat_apply {t : Shape} (h : (⟨0, ![]⟩ : Shape).BroadcastsInDim t ![]) (y : (⟨0, ![]⟩ : Shape).Idx → α) (j : t.Idx) :
    broadcastInDim t ![] h y j = y ix0 :=
  broadcastInDim_apply _ h y j ix0 (fun a => a.elim0)

/-- A vector of length n broadcast to one row and then to m rows reads, at (r, c), the vector at c. -/
theorem rowBias_apply {m n : Nat} (hn : n ≠ 1)
    (h1 : (⟨1, ![n]⟩ : Shape).BroadcastsInDim ⟨2, ![1, n]⟩ ![1])
    (h2 : (⟨2, ![1, n]⟩ : Shape).BroadcastsInDim ⟨2, ![m, n]⟩ ![0, 1])
    (b : (⟨1, ![n]⟩ : Shape).Idx → α) (r : Fin m) (c : Fin n) :
    broadcastInDim ⟨2, ![m, n]⟩ ![0, 1] h2 (broadcastInDim ⟨2, ![1, n]⟩ ![1] h1 b) (ix2 r c) = b (ix1 c) := by
  rw [broadcastInDim_apply _ h2 _ (ix2 r c) (ix2 (0 : Fin 1) c) (fun a => match a with
      | ⟨0, _⟩ => by show 0 = if (1 : Nat) = 1 then 0 else r.val; rw [if_pos rfl]
      | ⟨1, _⟩ => by show c.val = if n = 1 then 0 else c.val; rw [if_neg hn]),
    broadcastInDim_apply _ h1 b (ix2 (0 : Fin 1) c) (ix1 c) (fun a => match a with
      | ⟨0, _⟩ => by show c.val = if n = 1 then 0 else c.val; rw [if_neg hn])]

/-- A vector of length m as a column reads, at (r, z), the vector at r. -/
theorem col_apply {m : Nat} (hm : m ≠ 1) (h1 : (⟨1, ![m]⟩ : Shape).BroadcastsInDim ⟨2, ![m, 1]⟩ ![0])
    (v : (⟨1, ![m]⟩ : Shape).Idx → α) (r : Fin m) (z : Fin 1) :
    broadcastInDim ⟨2, ![m, 1]⟩ ![0] h1 v (ix2 r z) = v (ix1 r) :=
  broadcastInDim_apply _ h1 v (ix2 r z) (ix1 r) (fun a => match a with
    | ⟨0, _⟩ => by show r.val = if m = 1 then 0 else r.val; rw [if_neg hm])

/-- A column broadcast along its rows reads, at (r, d), the column at r. -/
theorem colBcast_apply {m n : Nat} (hm : m ≠ 1) (h2 : (⟨2, ![m, 1]⟩ : Shape).BroadcastsInDim ⟨2, ![m, n]⟩ ![0, 1])
    (Y : (⟨2, ![m, 1]⟩ : Shape).Idx → α) (r : Fin m) (d : Fin n) :
    broadcastInDim ⟨2, ![m, n]⟩ ![0, 1] h2 Y (ix2 r d) = Y (ix2 r (0 : Fin 1)) :=
  broadcastInDim_apply _ h2 Y (ix2 r d) (ix2 r (0 : Fin 1)) (fun a => match a with
    | ⟨0, _⟩ => by show r.val = if m = 1 then 0 else r.val; rw [if_neg hm]
    | ⟨1, _⟩ => by show 0 = if (1 : Nat) = 1 then 0 else d.val; rw [if_pos rfl])

end Cert.LibHostReads

end
-- ==== Proof.ActivateWhole.lean ====
/-
  The rectifier stage of the layer, read off the tiled program.

  The second pipelined region walks the aggregate in 25 blocks of 2000 rows. At block t it holds rows
  2000·t … 2000·t + 1999 of the aggregate and the whole bias vector, and writes back, to the same rows of its result,
  max (block + bias row, 0), the bias row being the bias vector reshaped to one row and repeated down the block. Every
  row of the result depends on that row of the aggregate and on the bias alone, so block t of the whole-array function

      activate raw b = max (raw + b repeated down the rows, 0)

  is that function of block t; the 25 blocks tile the 50000 rows, so after the last block the result array is
  activate of the aggregate and the bias as the region found them. The host spells the bias row by a broadcast along the
  columns of a one-row matrix where the tiled program reshapes: the same row.
-/
import proofs.«153287_j38981123178600_1_alg».proof.Proof.Gen.KernelIdeal.Frame
import proofs.«153287_j38981123178600_1_alg».proof.Proof.Stages
import proofs.«153287_j38981123178600_1_alg».proof.Proof.LibBiasRows
import proofs.«153287_j38981123178600_1_alg».proof.Proof.LibHostReads
import Idealize.ShloMosaic.Lib.Pipeline.Value
import Idealize.ShloMosaic.Lib.ValueIdx
import Idealize.ShloMosaic.Lib.ValueLayout
set_option maxRecDepth 65536
noncomputable section
namespace Cert.KernelIdeal.Whole
open Cert.KernelIdeal Cert.KernelIdeal.Gen
open Idealize.ShloMosaic Idealize.ShloMosaic.TcCoe Idealize.SL.Sem
open Idealize.ShloMosaic.ValueIdx
open Cert.LibBiasRows (biasRelu biasRelu_rows hostBiasRelu castRow_eq)
variable (V : (c : Dev nD) → (b : Ref sig .tc) → Buf (Elt Ideal) ((c : Thread nD τ).loc b))

/-! ## The whole-array function, in one spelling -/

/-- The bias vector as one row: entry (0, q) is the bias at q. -/
abbrev biasRow (b : FVec Ideal S128 .f32) : FVec Ideal S1x128 .f32 := shapeCast S1x128 b shapeCasts_S128_S1x128

/-- The host's stage — add the bias broadcast to one row and then down the rows, take the maximum with the zero splat —
    is max (raw(r,q) + b(q), 0) entry by entry, the bias row made by the reshape. -/
theorem activate_eq (raw : FVec Ideal S50000x128 .f32) (b : FVec Ideal S128 .f32) :
    Cert.Stages.activate raw b = biasRelu raw (biasRow b) := by
  unfold Cert.Stages.activate Cert.ReferenceIdeal.Read.val_main_v47 Cert.ReferenceIdeal.Read.val_main_v46
    Cert.ReferenceIdeal.Read.val_main_call1_v0 Cert.ReferenceIdeal.Read.val_main_call1_cst
  unfold biasRow
  rw [castRow_eq b _ Cert.ReferenceIdeal.Gen.bcast_S128_S1x128_1]
  exact hostBiasRelu raw _ _ _

/-! ## One block -/

/-- The block program on rows `row 0 … row 1999` of X and the bias vector: at (p, q) of the block it is
    max (X(row p, q) + b(q), 0), entry (row p, q) of the whole-array function. -/
theorem blockProgram_apply (row : Fin 2000 → Fin 50000) (X : FVec Ideal S50000x128 .f32) (b : FVec Ideal S128 .f32)
    (A : FVec Ideal S2000x128 .f32) (hA : ∀ r q, A (ix2 r q) = X (ix2 (row r) q))
    (j : S2000x128.Idx) (i : S50000x128.Idx) (h0 : (i 0).val = (row (j 0)).val) (h1 : (i 1).val = (j 1).val) :
    k1_pay1 (F := Ideal) b A j = biasRelu X (biasRow b) i := by
  have e : k1_pay1 (F := Ideal) b A
      = maximumf (F := Ideal) (addf (F := Ideal) (shapeCast S2000x128 A shapeCasts_S2000x128_S2000x128)
          (broadcastTo S2000x128 (shapeCast S1x128 (biasRow b) (rfl : S1x128.ShapeCasts S1x128)) broadcasts_S1x128_S2000x128))
        (broadcast S2000x128 (Scalar.ofBits (F := Ideal) .f32 0x00000000#32)) := by
    rw [shapeCast_self (biasRow b)]
    rfl
  rw [e]
  exact biasRelu_rows row X (biasRow b) A (biasRow b) hA (fun _ => rfl) _ _ _ j i h0 h1

/-! ## Where the blocks sit -/

theorem zeros2 : (![0, 0] : Fin 2 → Nat) = fun _ => 0 := funext fun a => by fin_cases a <;> rfl
theorem zeros1 : (![0] : Fin 1 → Nat) = fun _ => 0 := funext fun a => by fin_cases a <;> rfl

/-- The block indices at grid point t, decided over the 25 points: the aggregate's and the result's block is
    (t, 0), the bias's block is (0). -/
theorem blockIndex : ∀ t : Fin cfg1.N,
    win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- The aggregate's block at point t is its rows 2000·t … 2000·t + 1999. -/
theorem aggBlock_apply (c : Dev nD) (t : Fin cfg1.N) (x : S2000x128.Idx) (k : S50000x128.Idx)
    (hk0 : (k 0).val = 2000 * t.val + (x 0).val) (hk1 : (k 1).val = (x 1).val) :
    (iblk1 (F := Ideal) V c 0 t : Vec Ideal S2000x128 .f32) x = (V c main_v45 : S50000x128.Idx → Elt Ideal .f32) k := by
  obtain ⟨e0, e1, -, -, -⟩ := blockIndex t
  unfold iblk1
  rw [View.read_apply]
  show V c main_v45 _ = V c main_v45 _
  congr 1
  funext a
  apply Fin.ext
  match a with
  | ⟨0, _⟩ => show win1_0.index t (0 : Fin 2) * 2000 + 1 * (x 0).val = (k 0).val; rw [e0, hk0]; omega
  | ⟨1, _⟩ => show win1_0.index t (1 : Fin 2) * 128 + 1 * (x 1).val = (k 1).val; rw [e1, hk1]; omega

/-- The bias's block at every point is the whole bias vector. -/
theorem biasBlock_eq (c : Dev nD) (t : Fin cfg1.N) :
    (iblk1 (F := Ideal) V c 1 t : Vec Ideal S128 .f32) = (V c main_arg5 : S128.Idx → Elt Ideal .f32) := by
  obtain ⟨-, -, e, -, -⟩ := blockIndex t
  funext x
  unfold iblk1
  rw [View.read_apply]
  show V c main_arg5 _ = V c main_arg5 x
  congr 1
  funext a
  apply Fin.ext
  match a with
  | ⟨0, _⟩ => show win1_1.index t (0 : Fin 1) * 128 + 1 * (x 0).val = (x 0).val; rw [e]; omega

/-! ## What each point writes back, and the array after the last -/

/-- max (aggregate + bias row, 0) of the arrays as the region finds them. -/
abbrev result (c : Dev nD) : S50000x128.Idx → Elt Ideal .f32 :=
  biasRelu (V c main_v45 : S50000x128.Idx → Elt Ideal .f32) (biasRow (V c main_arg5 : S128.Idx → Elt Ideal .f32))

/-- Point t writes back rows 2000·t … 2000·t + 1999 of `result`. -/
theorem flushed_eq (c : Dev nD) (t : Fin cfg1.N) :
    (dat1 (F := Ideal) V c).flushed 2 t = ((cfg1.win 2).blk t).view.read (Elt Ideal) (result V c) := by
  have ht : t.val < 25 := t.isLt
  show (cfg1.win 2).cut (grid1.coords t) ((dat1 (F := Ideal) V c).after 2 t) = _
  rw [after1_2]
  unfold out1_2
  rw [View.canon_unit_zero zeros2]
  simp only [View.ld_unit_zero (S := S2000x128) zeros2, View.ld_unit_zero (S := S128) zeros1]
  rw [biasBlock_eq V c t]
  obtain ⟨-, -, -, e0, e1⟩ := blockIndex t
  funext j
  show k1_pay1 (F := Ideal) (V c main_arg5) (iblk1 (F := Ideal) V c 0 t) j = result V c (((cfg1.win 2).blk t).view.emb j)
  refine blockProgram_apply (fun r => ⟨2000 * t.val + r.val, by have := r.isLt; omega⟩) (V c main_v45) (V c main_arg5)
    (iblk1 (F := Ideal) V c 0 t) (fun r q => aggBlock_apply V c t (ix2 r q) (ix2 _ q) rfl rfl) j _ ?_ ?_
  · show win1_2.index t (0 : Fin 2) * 2000 + 1 * (j 0).val = 2000 * t.val + (j 0).val
    rw [e0]; omega
  · show win1_2.index t (1 : Fin 2) * 128 + 1 * (j 1).val = (j 1).val
    rw [e1]; omega

/-- An index of the result is in point t's block iff each coordinate is in the block's range on its axis. -/
theorem mem_block (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v46).slice (win1_2.rect t)).set ↔ _
  rw [View.set_slice_whole, Rect.mem_set_unit]
  exact Iff.rfl

/-- Row r of the result lies in the block of point r / 2000: the 25 blocks tile the 50000 rows. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 25 := N_1
  obtain ⟨t, ht⟩ : ∃ t : Fin cfg1.N, t.val = (i 0).val / 2000 := ⟨⟨(i 0).val / 2000, by rw [hN]; omega⟩, rfl⟩
  obtain ⟨-, -, -, e0, e1⟩ := blockIndex t
  refine ⟨t, flush1_2 t, ?_⟩
  rw [mem_block]
  intro a
  match a with
  | ⟨0, _⟩ =>
    show win1_2.index t (0 : Fin 2) * 2000 ≤ (i 0).val ∧ (i 0).val < win1_2.index t (0 : Fin 2) * 2000 + 2000
    rw [e0, ht]; omega
  | ⟨1, _⟩ =>
    show win1_2.index t (1 : Fin 2) * 128 ≤ (i 1).val ∧ (i 1).val < win1_2.index t (1 : Fin 2) * 128 + 128
    rw [e1]; omega

/-- After its last point the region's result array holds the rectified, biased aggregate: max (aggregate + bias, 0) of
    the aggregate and the bias as the region found them — each point wrote its 2000 rows of that one function, and the
    points' blocks tile the array. -/
theorem activate_whole (c : Dev nD) :
    (dat1 (F := Ideal) V c).arrAt 2 cfg1.N = Cert.Stages.activate (V c main_v45) (V c main_arg5) := by
  rw [activate_eq]
  exact (dat1 (F := Ideal) V c).arrAt_eq_of_cover 2 (result V c) (fun t _ => flushed_eq V c t) covered

end Cert.KernelIdeal.Whole
end
-- ==== Proof.LibKeepdims.lean ====
/-
  Row reductions that keep their axis, read at an index.

  A kernel's `jnp.max(x, axis=-1, keepdims=True)` or `jnp.sum(…, keepdims=True)` on an `[a, b]` array prints as a lane
  reduction to `[a]`, a shape cast to the column `[a, 1]` and a broadcast of the column back to `[a, b]`.  Read at
  `(r, c)` each step names one index of its operand: the broadcast reads the column at `(r, 0)`, the cast reads the vector
  at `r`, and the reduction at `r` runs over the row `k ↦ (r, k)` — as a fold of `max` from the accumulator's value for a
  maximum, as a plain sum for an addition.  All at any extents `a`, `b` and any float format; the indices are written by
  coordinates (`ix1`, `ix2`), so each lemma applies to a printed operation by unification.
-/
import Idealize.ShloMosaic.Lib.ValueLayout
import Idealize.ShloMosaic.PureOps.Ideal.Laws

namespace Idealize.ShloMosaic.ValueIdx

open Idealize.ShloMosaic

variable {α : Type}

/-- An `[a]` vector cast to the column `[a, 1]` reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Over a reduction of `[a, b]` along its last axis, the source index above `r` with `k` on the dropped axis is `(r, k)`. -/
theorem lift_row {a b : ℕ} (h : (⟨2, ![a, b]⟩ : Shape).Reduces [(1 : Fin 2)] ⟨1, ![a]⟩) (r : Fin a) (k : Fin b) :
    h.lift (ix1 r) k = ix2 r k :=
  funext fun c => Fin.ext (by match c with | ⟨0, _⟩ => rfl | ⟨1, _⟩ => rfl)

variable {φ : FTy}

/-- A lane maximum of an `[a, b]` array at row `r`, at the exact values: the fold of `max` from the accumulator's value over the row. -/
theorem multiReduction_maximumf_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (r : Fin a) :
    multiReduction .maximumf [(1 : Fin 2)] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (Finset.fold max (Ideal.ofBits φ acc) · (Finset.univ : Finset (Fin b))) (funext fun k => congrArg src (lift_row h r k))

/-- A lane sum of an `[a, b]` array at row `r`, at the exact values: the sum over the row. -/
theorem multiReduction_add_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (r : Fin a) :
    multiReduction .add [(1 : Fin 2)] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end Idealize.ShloMosaic.ValueIdx
-- ==== Proof.MeanWhole.lean ====
/-
  The third region: the pooled sums divided by the node counts.

  The region has one grid point. Its three windows are whole arrays: the pooled sums [500,128], the count column
  [500,1] and the output [500,128], each one block at offset zero. The body divides every entry (p, q) of the sums by
  the column's entry (p, 0): the column is repeated along the 128 columns and the two arrays are divided entry by
  entry. That is `mean` of the two arrays, whose host spelling repeats the column by a broadcast along the same axis;
  the extended reals' quotient is one function whichever program applies it. The one block covers the output array, so
  after the region the output array is `mean` of the two input arrays as the region found them.
-/
import proofs.«153287_j38981123178600_1_alg».proof.Proof.Gen.KernelIdeal.Frame
import proofs.«153287_j38981123178600_1_alg».proof.Proof.Stages
import proofs.«153287_j38981123178600_1_alg».proof.Proof.LibKeepdims
import proofs.«153287_j38981123178600_1_alg».proof.Proof.LibHostReads
import Idealize.ShloMosaic.Lib.Pipeline.Value
import Idealize.ShloMosaic.Lib.ValueIdx

set_option maxRecDepth 65536

noncomputable section

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets2 : (![0, 0] : Fin 2 → Nat) = fun _ => 0 := funext fun a => by fin_cases a <;> rfl

/-- `mean` at an entry: the sums' entry over the column's entry of the same row. -/
theorem mean_apply (s : FVec Ideal S500x128 .f32) (n : FVec Ideal S500x1 .f32) (p : Fin 500) (q : Fin 128) :
    Cert.Stages.mean s n (ix2 p q) = Ideal.div (s (ix2 p q)) (n (ix2 p (0 : Fin 1))) := by
  unfold Cert.Stages.mean
  exact congrArg (Ideal.div (s (ix2 p q))) (Cert.LibHostReads.colBcast_apply (by decide) _ n p q)

/-- The body's value at an entry: the same quotient. -/
theorem quotient_apply (s : Vec Ideal S500x128 .f32) (n : Vec Ideal S500x1 .f32) (p : Fin 500) (q : Fin 128) :
    k2_pay1 (F := Ideal) n s (ix2 p q) = Ideal.div (s (ix2 p q)) (n (ix2 p (0 : Fin 1))) := by
  unfold k2_pay1
  rw [divf_apply, shapeCast_self, broadcastTo_a1_ab_apply, shapeCast_self, shapeCast_self]

/-- The body's value on blocks that are the arrays read entry for entry is `mean` of the arrays. -/
theorem quotient_block (X : FVec Ideal S500x128 .f32) (N : FVec Ideal S500x1 .f32)
    (s : Vec Ideal S500x128 .f32) (n : Vec Ideal S500x1 .f32)
    (hs : ∀ p q, s (ix2 p q) = X (ix2 p q)) (hn : ∀ p, n (ix2 p (0 : Fin 1)) = N (ix2 p (0 : Fin 1)))
    (j i : S500x128.Idx) (h0 : (i 0).val = (j 0).val) (h1 : (i 1).val = (j 1).val) :
    k2_pay1 (F := Ideal) n s j = Cert.Stages.mean X N i := by
  obtain ⟨p, q, rfl⟩ : ∃ (p : Fin 500) (q : Fin 128), j = ix2 p q := ⟨j 0, j 1, eq_ix2 j⟩
  obtain rfl : i = ix2 p q := by
    rw [eq_ix2 i]; exact congrArg₂ ix2 (Fin.ext h0) (Fin.ext h1)
  rw [quotient_apply, mean_apply, hs, hn]

/-- Every window's one block sits at offset zero. -/
theorem blocks_at_zero : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- The sums' block is the sums' array, entry for entry. -/
theorem sums_block (c : Dev nD) (t : Fin cfg2.N) (p : Fin 500) (q : Fin 128) :
    (iblk2 V c 0 t : Vec Ideal S500x128 .f32) (ix2 p q) = (V c main_v49 : S500x128.Idx → Elt Ideal .f32) (ix2 p q) := by
  obtain ⟨e0, e1, -, -, -, -⟩ := blocks_at_zero t
  unfold iblk2
  rw [View.read_apply]
  show V c main_v49 _ = V c main_v49 _
  refine congrArg _ (funext fun a => Fin.ext ?_)
  match a with
  | ⟨0, _⟩ => show win2_0.index t (0 : Fin 2) * 500 + 1 * p.val = p.val; omega
  | ⟨1, _⟩ => show win2_0.index t (1 : Fin 2) * 128 + 1 * q.val = q.val; omega

/-- The count column's block is the column, entry for entry. -/
theorem counts_block (c : Dev nD) (t : Fin cfg2.N) (p : Fin 500) :
    (iblk2 V c 1 t : Vec Ideal S500x1 .f32) (ix2 p (0 : Fin 1)) = (V c main_v56 : S500x1.Idx → Elt Ideal .f32) (ix2 p (0 : Fin 1)) := by
  obtain ⟨-, -, e0, e1, -, -⟩ := blocks_at_zero t
  unfold iblk2
  rw [View.read_apply]
  show V c main_v56 _ = V c main_v56 _
  refine congrArg _ (funext fun a => Fin.ext ?_)
  match a with
  | ⟨0, _⟩ => show win2_1.index t (0 : Fin 2) * 500 + 1 * p.val = p.val; omega
  | ⟨1, _⟩ => show win2_1.index t (1 : Fin 2) * 1 + 1 * 0 = 0; omega

/-- What the one point writes back is the block of `mean` of the two arrays. -/
theorem mean_flushed (c : Dev nD) (t : Fin cfg2.N) :
    (dat2 (F := Ideal) V c).flushed 2 t
      = ((cfg2.win 2).blk t).view.read (Elt Ideal) (Cert.Stages.mean (V c main_v49) (V c main_v56)) := by
  obtain ⟨-, -, -, -, e0, e1⟩ := blocks_at_zero t
  show (cfg2.win 2).cut (grid2.coords t) ((dat2 V c).after 2 t) = _
  rw [after2_2]
  unfold out2_2
  rw [View.canon_unit_zero zero_offsets2]
  simp only [View.ld_unit_zero (S := S500x128) zero_offsets2, View.ld_unit_zero (S := S500x1) zero_offsets2]
  funext j
  rw [View.read_apply]
  refine quotient_block (V c main_v49) (V c main_v56) _ _ (sums_block V c t) (counts_block V c t) j _ ?_ ?_
  · show win2_2.index t (0 : Fin 2) * 500 + 1 * (j 0).val = (j 0).val; omega
  · show win2_2.index t (1 : Fin 2) * 128 + 1 * (j 1).val = (j 1).val; omega

/-- After the third region its output array is `mean` of the pooled sums and the count column as the region found
    them. -/
theorem mean_whole (c : Dev nD) :
    (dat2 (F := Ideal) V c).arrAt 2 cfg2.N = Cert.Stages.mean (V c main_v49) (V c main_v56) :=
  (dat2 V c).arrAt_eq_of_cover 2 _ (fun t _ => mean_flushed V c t) fun i =>
    ⟨t2_0, flush2_2 t2_0, by
      obtain ⟨-, -, -, -, e0, e1⟩ := blocks_at_zero t2_0
      show i ∈ ((View.whole main_v57).slice (win2_2.rect t2_0)).set
      rw [View.set_slice_whole, Rect.mem_set_unit]
      intro a
      have h0 : (i 0 : Nat) < 500 := (i 0).isLt
      have h1 : (i 1 : Nat) < 128 := (i 1).isLt
      match a with
      | ⟨0, _⟩ => show win2_2.index t2_0 (0 : Fin 2) * 500 ≤ (i 0 : Nat) ∧ (i 0 : Nat) < win2_2.index t2_0 (0 : Fin 2) * 500 + 500; omega
      | ⟨1, _⟩ => show win2_2.index t2_0 (1 : Fin 2) * 128 ≤ (i 1 : Nat) ∧ (i 1 : Nat) < win2_2.index t2_0 (1 : Fin 2) * 128 + 128; omega⟩

end Cert.KernelIdeal.Whole

end
-- ==== Proof.KernelValue.lean ====
/-
  The idealized kernel's two results as the reference's stage functions of the arguments.

  Walking the run's boundaries from the last one back:
  * the graph-level result is what the third region leaves: `mean` of the pooled buffer and the count column as that
    region found them, which the stretch before it computed as `pool` of the node-level result and `counts`, both of
    the batch vector;
  * the node-level result is what the second region leaves — neither the stretch after it nor the third region writes
    it —: `activate` of the aggregate buffer and the bias, the aggregate being `aggregate` of the first region's
    output, of the edge list and of the weights;
  * the first region's output is the product x · W of the node features and the weight matrix as launched.
  Composed, these are the reference's own two terms (`ref_nodes`, `ref_graphs`).
-/
import proofs.«153287_j38981123178600_1_alg».proof.Proof.KernelRun
import proofs.«153287_j38981123178600_1_alg».proof.Proof.HostFirst
import proofs.«153287_j38981123178600_1_alg».proof.Proof.HostNorm
import proofs.«153287_j38981123178600_1_alg».proof.Proof.HostBetween
import proofs.«153287_j38981123178600_1_alg».proof.Proof.ProductWhole
import proofs.«153287_j38981123178600_1_alg».proof.Proof.ActivateWhole
import proofs.«153287_j38981123178600_1_alg».proof.Proof.MeanWhole

set_option maxRecDepth 65536

noncomputable section

namespace Cert.KernelIdeal.Whole

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- After the first region its output holds x · W. -/
theorem W4_product (c : Dev nD) :
    W4 m ρ c (Proc.devRef .tc main_v32) = Cert.ReferenceIdeal.Read.val_main_v32 (F := Ideal) (m ((c.tc : Thread nD τ).loc main_arg0)) (m ((c.tc : Thread nD τ).loc main_arg4)) := by
  refine (W4_arr m ρ c 2).trans ?_
  rw [product_whole (V3 m ρ) c]
  show Cert.ReferenceIdeal.Read.val_main_v32 (F := Ideal) (W3 m ρ c (Proc.devRef .tc main_arg0)) (W3 m ρ c (Proc.devRef .tc main_arg4)) = _
  rw [W3_arg0, W3_arg4]

/-- After the second region its output holds the reference's node-level term. -/
theorem W6_nodes (c : Dev nD) :
    W6 m ρ c (Proc.devRef .tc main_v46)
      = Cert.ReferenceIdeal.Read.val_main_v49 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) := by
  refine (W6_arr m ρ c 2).trans ?_
  rw [activate_whole (V5 m ρ) c]
  show Cert.Stages.activate (W5 m ρ c (Proc.devRef .tc main_v45)) (W5 m ρ c (Proc.devRef .tc main_arg5)) = _
  rw [W5_aggregate, W5_arg5, W4_product, Cert.Stages.ref_nodes]

/-- The node-level result at the last boundary. -/
theorem W8_nodes (c : Dev nD) :
    W8 m ρ c (Proc.devRef .tc main_v46)
      = Cert.ReferenceIdeal.Read.val_main_v49 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) := by
  rw [W8_of_ne m ρ c main_v46 (by decide), W7_nodes, W6_nodes]

/-- The graph-level result at the last boundary. -/
theorem W8_graphs (c : Dev nD) :
    W8 m ρ c (Proc.devRef .tc main_v57)
      = Cert.ReferenceIdeal.Read.val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W8_arr m ρ c 2).trans ?_
  rw [mean_whole (V7 m ρ) c]
  show Cert.Stages.mean (W7 m ρ c (Proc.devRef .tc main_v49)) (W7 m ρ c (Proc.devRef .tc main_v56)) = _
  rw [W7_pool, W7_counts, W6_nodes, Cert.Stages.ref_graphs]

/-- The idealized kernel's run: it terminates without a fault, its two results are the reference's two terms of the
    arguments as launched, and the arguments end unchanged. -/
theorem run : θ_run defs (onTc (τ := τ) (main (F := Ideal))) ⟨m, fun _ => 0, ρ⟩ (fun r => ∀ c : Dev nD,
      r.2.mem ((c.tc : Thread nD τ).loc main_v46)
        = Cert.ReferenceIdeal.Read.val_main_v49 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))
      ∧ r.2.mem ((c.tc : Thread nD τ).loc main_v57)
        = Cert.ReferenceIdeal.Read.val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W8_nodes m ρ c), (h c).2.1.trans (W8_graphs m ρ c), (h c).2.2⟩)
    (run_last (F := Ideal) m ρ)

end Cert.KernelIdeal.Whole

end
-- ==== Proof.lean ====
/-
  One graph-convolution layer with mean pooling: the tiled program against its reference, on the extended reals.

  Both programs build, from the edge list and the edge weights, the edges with a self-loop per node and the
  symmetrically normalised weights, and then compute

      nodes  = max (aggregate (x · W) + b, 0)        graphs = pool nodes / counts,

  `aggregate` gathering, per edge, the source node's row scaled by the normalised weight and adding it into the target
  node's row, `pool` adding each node's row into its graph's row, `counts` the number of nodes per graph, at least one.
  They differ in three places only. The tiled program computes x · W in 25 blocks of 2000 rows, each block's operands
  narrowed to bf16 and multiplied into a zero accumulator: at the extended reals narrowing is the identity and a block of
  rows of a product is the product of the block of rows. It adds the bias and takes the maximum with zero in 25 blocks of
  2000 rows, the bias made a row by a reshape where the reference broadcasts: the same row, and rows are independent. It
  divides by the count column inside a one-point region, repeating the column by a vector broadcast where the reference
  broadcasts along the same axis: the same quotient of the same entries. The host operations around these three places
  are the same functions in both programs and are never opened.

  The idealized kernel's run with its results read is `Cert.KernelIdeal.Whole.run`; the reference's run and its terms are
  generated; the idealization rewrote nothing, so there is nothing to preserve; the frames are the generated ones.
-/
import proofs.«153287_j38981123178600_1_alg».proof.Defs
import proofs.«153287_j38981123178600_1_alg».proof.Proof.Gen.Kernel
import proofs.«153287_j38981123178600_1_alg».proof.Proof.Gen.Kernel.Skeleton
import proofs.«153287_j38981123178600_1_alg».proof.Proof.Gen.Kernel.Launch
import proofs.«153287_j38981123178600_1_alg».proof.Proof.Gen.Kernel.Points
import proofs.«153287_j38981123178600_1_alg».proof.Proof.Gen.Kernel.Frame
import proofs.«153287_j38981123178600_1_alg».proof.Proof.Gen.KernelIdeal
import proofs.«153287_j38981123178600_1_alg».proof.Proof.Gen.KernelIdeal.Skeleton
import proofs.«153287_j38981123178600_1_alg».proof.Proof.Gen.KernelIdeal.Launch
import proofs.«153287_j38981123178600_1_alg».proof.Proof.Gen.KernelIdeal.Points
import proofs.«153287_j38981123178600_1_alg».proof.Proof.Gen.KernelIdeal.Frame
import proofs.«153287_j38981123178600_1_alg».proof.Proof.Gen.ReferenceIdeal
import proofs.«153287_j38981123178600_1_alg».proof.Proof.Gen.Pre_finite_inputs
import proofs.«153287_j38981123178600_1_alg».proof.Proof.Gen.ReferenceIdeal.Run
import proofs.«153287_j38981123178600_1_alg».proof.Proof.Gen.ReferenceIdeal.Read
import proofs.«153287_j38981123178600_1_alg».proof.Proof.KernelValue
import Idealize.ShloMosaic.Adequacy
import Idealize.ShloMosaic.Init

set_option maxRecDepth 65536

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the six arguments both programs end with the node-level and the graph-level result
    at the same two functions of the arguments: the reference's own terms, which the kernel's run reaches through its
    three regions. -/
theorem algebraic : Cert.algebraic_KernelIdeal_ReferenceIdeal := by
  intro m ρ m' ρ' _ hagree
  refine ⟨fun c => Cert.ReferenceIdeal.Read.val_main_v49 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.ReferenceIdeal.Read.val_main_v61 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Whole.run m ρ, ?_⟩
  refine (θ_run Cert.ReferenceIdeal.defs _ _).mono (fun _ h c => ?_) (Cert.ReferenceIdeal.Value.run (F := Ideal) m' ρ')
  obtain ⟨e0, e1, e2, e3, e4, e5⟩ := hagree c
  refine ⟨(h c).1.trans ?_, (h c).2.1.trans ?_, (h c).2.2⟩
  · rw [Cert.ReferenceIdeal.Read.val_main_v49_eq, e0, e1, e2, e4, e5]
  · rw [Cert.ReferenceIdeal.Read.val_main_v61_eq, e0, e1, e2, e3, e4, e5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
